-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S256x1024 : Shape := ⟨2, ![256, 1024]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x4096.size a
  hwx0_1 : ∀ i : grid0.Coords, EltTy.bits .f32 = 32 ∨ (Rect.block (s := S4096x4096) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.Spec.lean ====
/-
  The function both programs compute: a dense layer with sign-binarised weights,

      out[r, c] = max (∑ k < 4096, x[r, k] · bin (W[k, c]) + b[c], 0),      bin w = 1 if w ≥ 0, else -1,

  on the extended reals, and the same entry with the sum over `k` cut into 16 consecutive blocks of 256.  The cut
  uses only that addition on the extended reals is associative and commutative, so no entry needs to be finite.
-/
import Idealize.ShloMosaic.PureOps.Ideal.Laws
import Idealize.ShloMosaic.Lib.ValueIdx
import proofs.«108069_j91070486544907_2_alg».proof.Proof.LibSumBlocks

noncomputable section

namespace Cert.BinaryDense

open Idealize.ShloMosaic Idealize.ShloMosaic.ValueIdx
open scoped BigOperators

/-- The binarised weight: the float word of `1` where the weight is at least zero, the word of `-1` elsewhere.  The
    three float words stay as printed; both programs use the same ones. -/
def bin (w : EReal) : EReal :=
  Scalar.select (FloatOps.cmpf (F := Ideal) (φ := .f32) .oge w (Ideal.ofBits .f32 0x00000000#32))
    (Ideal.ofBits .f32 0x3F800000#32) (Ideal.ofBits .f32 0xBF800000#32)

/-- Entry `(r, c)` of `relu (x · bin W + b)`. -/
def dense (x : (⟨2, ![8192, 4096]⟩ : Shape).Idx → EReal) (W : (⟨2, ![4096, 4096]⟩ : Shape).Idx → EReal)
    (b : (⟨1, ![4096]⟩ : Shape).Idx → EReal) (r : Fin 8192) (c : Fin 4096) : EReal :=
  max ((∑ k : Fin 4096, x (ix2 r k) * bin (W (ix2 k c))) + b (ix1 c)) 0

/-- A matrix read at a pair of natural numbers (zero outside the matrix): block offsets are sums of naturals, and this
    keeps their bounds out of the statements. -/
def at2 {a b : ℕ} (X : (⟨2, ![a, b]⟩ : Shape).Idx → EReal) (i j : ℕ) : EReal :=
  if h : i < a ∧ j < b then X (ix2 ⟨i, h.1⟩ ⟨j, h.2⟩) else 0

theorem at2_eq {a b : ℕ} (X : (⟨2, ![a, b]⟩ : Shape).Idx → EReal) (i : Fin a) (j : Fin b) :
    at2 X i.val j.val = X (ix2 i j) := by
  unfold at2; rw [dif_pos ⟨i.isLt, j.isLt⟩]

/-- A vector read at a natural number (zero outside the vector). -/
def at1 {a : ℕ} (X : (⟨1, ![a]⟩ : Shape).Idx → EReal) (i : ℕ) : EReal :=
  if h : i < a then X (ix1 ⟨i, h⟩) else 0

theorem at1_eq {a : ℕ} (X : (⟨1, ![a]⟩ : Shape).Idx → EReal) (i : Fin a) : at1 X i.val = X (ix1 i) := by
  unfold at1; rw [dif_pos i.isLt]

/-- The part of entry `(row, col)`'s sum that comes from the `s`-th block of 256 consecutive values of `k`. -/
def blockTerm (x : (⟨2, ![8192, 4096]⟩ : Shape).Idx → EReal) (W : (⟨2, ![4096, 4096]⟩ : Shape).Idx → EReal)
    (row col s : ℕ) : EReal :=
  ∑ kk : Fin 256, at2 x row (s * 256 + kk.val) * bin (at2 W (s * 256 + kk.val) col)

/-- The entry with its sum taken block by block. -/
theorem dense_eq_blocks (x : (⟨2, ![8192, 4096]⟩ : Shape).Idx → EReal) (W : (⟨2, ![4096, 4096]⟩ : Shape).Idx → EReal)
    (b : (⟨1, ![4096]⟩ : Shape).Idx → EReal) (r : Fin 8192) (c : Fin 4096) :
    dense x W b r c = max ((∑ s ∈ Finset.range 16, blockTerm x W r.val c.val s) + b (ix1 c)) 0 := by
  unfold dense
  have hN : 16 * 256 = 4096 := by norm_num
  rw [SumBlocks.sum_eq hN, ← Fin.sum_univ_eq_sum_range (fun s => blockTerm x W r.val c.val s) 16]
  refine congrArg (fun z => max (z + b (ix1 c)) 0) (Finset.sum_congr rfl fun s _ => ?_)
  unfold blockTerm
  refine Finset.sum_congr rfl fun kk _ => ?_
  rw [← at2_eq x r (SumBlocks.idx hN s kk), ← at2_eq W (SumBlocks.idx hN s kk) c]
  rfl

end Cert.BinaryDense

end
-- ==== Proof.Payload.lean ====
/-
  The kernel body's three stored values, read at an entry `(p, q)` of the 2048 × 1024 output block, on the extended
  reals (where the two casts to bf16 are the identity):

    * the reset value is zero everywhere;
    * the accumulation step leaves `acc[p, q] + ∑ kk < 256, xblk[p, kk] · bin (wblk[kk, q])`;
    * the closing step leaves `max (acc[p, q] + bias[0, q], 0)`.
-/
import proofs.«108069_j91070486544907_2_alg».proof.Proof.Gen.KernelIdeal.Skeleton
import proofs.«108069_j91070486544907_2_alg».proof.Proof.Spec
import Idealize.ShloMosaic.Lib.Pipeline.Value
import Idealize.ShloMosaic.Lib.ValueLayout

noncomputable section

namespace Cert.BinaryDense.Kernel

open Cert.KernelIdeal Cert.KernelIdeal.Gen Idealize.ShloMosaic Idealize.ShloMosaic.ValueIdx
open scoped BigOperators

/-- The left operand's row coordinate at output `j` is `j`'s row. -/
theorem lhs_0 (j : S2048x1024.Idx) (k : dot_S2048x256_S256x1024_S2048x1024_1_0_0_1_n_n.contr.Idx) :
    (dot_S2048x256_S256x1024_S2048x1024_1_0_0_1_n_n.lhsIdx j k 0).val = (j 0).val := by
  unfold DotDims.lhsIdx
  rw [dif_neg (show ¬(0 : Fin S2048x256.rank) ∈ dot_S2048x256_S256x1024_S2048x1024_1_0_0_1_n_n.lhsBatch by decide),
    dif_pos (show (0 : Fin S2048x256.rank) ∈ dot_S2048x256_S256x1024_S2048x1024_1_0_0_1_n_n.lhsNonContracting by decide)]
  rfl
/-- … and its column coordinate is the contracted index. -/
theorem lhs_1 (j : S2048x1024.Idx) (k : dot_S2048x256_S256x1024_S2048x1024_1_0_0_1_n_n.contr.Idx) :
    (dot_S2048x256_S256x1024_S2048x1024_1_0_0_1_n_n.lhsIdx j k 1).val = (k ⟨0, by decide⟩).val :=
  dot_S2048x256_S256x1024_S2048x1024_1_0_0_1_n_n.lhsIdx_val_of_single rfl j k
/-- The right operand's row coordinate is the contracted index. -/
theorem rhs_0 (j : S2048x1024.Idx) (k : dot_S2048x256_S256x1024_S2048x1024_1_0_0_1_n_n.contr.Idx) :
    (dot_S2048x256_S256x1024_S2048x1024_1_0_0_1_n_n.rhsIdx j k 0).val = (k ⟨0, by decide⟩).val :=
  dot_S2048x256_S256x1024_S2048x1024_1_0_0_1_n_n.rhsIdx_val_of_single rfl j k
/-- … and its column coordinate at output `j` is `j`'s column. -/
theorem rhs_1 (j : S2048x1024.Idx) (k : dot_S2048x256_S256x1024_S2048x1024_1_0_0_1_n_n.contr.Idx) :
    (dot_S2048x256_S256x1024_S2048x1024_1_0_0_1_n_n.rhsIdx j k 1).val = (j 1).val := by
  unfold DotDims.rhsIdx
  rw [dif_neg (show ¬(1 : Fin S256x1024.rank) ∈ dot_S2048x256_S256x1024_S2048x1024_1_0_0_1_n_n.rhsBatch by decide),
    dif_pos (show (1 : Fin S256x1024.rank) ∈ dot_S2048x256_S256x1024_S2048x1024_1_0_0_1_n_n.rhsNonContracting by decide)]
  rfl

/-- The block product into a zero accumulator, at `(p, q)`: the sum over the 256 values of the contracted index. -/
theorem matmul_zero_apply (l : FVec Ideal S2048x256 .bf16) (r : FVec Ideal S256x1024 .bf16) (p : Fin 2048) (q : Fin 1024) :
    FloatOps.matmul dot_S2048x256_S256x1024_S2048x1024_1_0_0_1_n_n none l r (constant S2048x1024 .f32 0x00000000#32) (ix2 p q)
      = ∑ kk : Fin 256, l (ix2 p kk) * r (ix2 kk q) := by
  rw [Ideal.matmul_constant_zero_apply,
    ← Equiv.sum_comp (ValueIdx.contrEquiv1 dot_S2048x256_S256x1024_S2048x1024_1_0_0_1_n_n 256 rfl rfl).symm]
  refine Finset.sum_congr rfl fun kk _ => ?_
  have hk := ValueIdx.contrEquiv1_symm_val dot_S2048x256_S256x1024_S2048x1024_1_0_0_1_n_n 256 rfl rfl kk
  have el : dot_S2048x256_S256x1024_S2048x1024_1_0_0_1_n_n.lhsIdx (ix2 p q)
      ((ValueIdx.contrEquiv1 dot_S2048x256_S256x1024_S2048x1024_1_0_0_1_n_n 256 rfl rfl).symm kk) = ix2 p kk :=
    funext fun a => Fin.ext (by
      match a with
      | ⟨0, _⟩ => exact lhs_0 _ _
      | ⟨1, _⟩ => exact (lhs_1 _ _).trans hk)
  have er : dot_S2048x256_S256x1024_S2048x1024_1_0_0_1_n_n.rhsIdx (ix2 p q)
      ((ValueIdx.contrEquiv1 dot_S2048x256_S256x1024_S2048x1024_1_0_0_1_n_n 256 rfl rfl).symm kk) = ix2 kk q :=
    funext fun a => Fin.ext (by
      match a with
      | ⟨0, _⟩ => exact (rhs_0 _ _).trans hk
      | ⟨1, _⟩ => exact rhs_1 _ _)
  rw [el, er]

/-- The reset value: zero at every entry. -/
theorem pay1_apply (j : S2048x1024.Idx) : k0_pay1 (F := Ideal) j = 0 :=
  Ideal.ofBits_zero_f32

/-- The accumulation step at `(p, q)`: what was there plus this block's share of the row-by-column sum, each weight
    binarised. -/
theorem pay2_apply (x0 : Vec Ideal S2048x256 .f32) (x1 : Vec Ideal S256x1024 .f32) (acc : Vec Ideal S2048x1024 .f32)
    (p : Fin 2048) (q : Fin 1024) :
    k0_pay2 (F := Ideal) x0 x1 acc (ix2 p q) = acc (ix2 p q) + ∑ kk : Fin 256, x0 (ix2 p kk) * bin (x1 (ix2 kk q)) := by
  unfold k0_pay2
  refine (addf_apply _ _ (ix2 p q)).trans ?_
  refine congrArg₂ (· + ·) (congrFun (shapeCast_self acc _) _) ?_
  refine (matmul_zero_apply _ _ p q).trans ?_
  exact Finset.sum_congr rfl fun kk _ => rfl

/-- The closing step at `(p, q)`: the bias row's entry `q` added, then the maximum with zero. -/
theorem pay3_apply (v : Vec Ideal S2048x1024 .f32) (x2 : Vec Ideal S1x1024 .f32) (p : Fin 2048) (q : Fin 1024) :
    k0_pay3 (F := Ideal) v x2 (ix2 p q) = max (v (ix2 p q) + x2 (ix2 (0 : Fin 1) q)) 0 := by
  unfold k0_pay3
  refine (maximumf_apply _ _ (ix2 p q)).trans ?_
  refine congrArg₂ max ?_ Ideal.ofBits_zero_f32
  refine (addf_apply _ _ (ix2 p q)).trans ?_
  refine congrArg₂ (· + ·) (congrFun (shapeCast_self v _) _) ?_
  refine (broadcastTo_1b_ab_apply _ _ p q).trans ?_
  exact congrFun (shapeCast_self x2 _) _

end Cert.BinaryDense.Kernel

end
-- ==== Proof.Blocks.lean ====
/-
  The kernel's result array, entry by entry.

  The grid is 4 × 4 × 16: point `t` works on row block `t / 64`, column block `t / 16 % 4` and the `t % 16`-th block of 256
  values of the summation index.  The sixteen consecutive points `16·R … 16·R + 15` share one 2048 × 1024 output block:
  the first resets it to zero and adds its block's partial products, each later one adds its own, and the last also
  adds the bias row and takes the maximum with zero before the block is written back.  So entry `(r, c)` ends as

      max (0 + ∑ s < 16, ∑ kk < 256, x[r, 256·s + kk] · bin (W[256·s + kk, c]) + b[c], 0),

  the reference's entry with its sum cut into sixteen blocks.
-/
import proofs.«108069_j91070486544907_2_alg».proof.Proof.Gen.KernelIdeal.Value
import proofs.«108069_j91070486544907_2_alg».proof.Proof.Payload
import proofs.«108069_j91070486544907_2_alg».proof.Proof.Spec
import Idealize.ShloMosaic.Lib.StableHlo.Run
import Idealize.ShloMosaic.Lib.ValueLayout

noncomputable section

namespace Cert.BinaryDense.Kernel

open Cert.KernelIdeal Cert.KernelIdeal.Gen Cert.KernelIdeal.Value Idealize.ShloMosaic Idealize.ShloMosaic.TcCoe
open Idealize.ShloMosaic.ValueIdx Idealize.SL.Sem
open scoped BigOperators

variable (m : (ℓ : Loc nD τ sig) → Buf (Elt Ideal) ℓ)

/-- Which block of each input array a grid point reads, decided over the 256 points: `x`'s block `(t / 64, t % 16)`,
    `W`'s block `(t % 16, t / 16 % 4)`, the bias row's block `(0, t / 16 % 4)`. -/
theorem in_idx : ∀ t : Fin cfg0.N,
    win0_0.index t (0 : Fin 2) = t.val / 64 ∧ win0_0.index t (1 : Fin 2) = t.val % 16
    ∧ win0_1.index t (0 : Fin 2) = t.val % 16 ∧ win0_1.index t (1 : Fin 2) = t.val / 16 % 4
    ∧ win0_2.index t (0 : Fin 2) = 0 ∧ win0_2.index t (1 : Fin 2) = t.val / 16 % 4 :=
  (by decide +kernel : ∀ t : Fin grid0.N, _)

/-- Entry `(p, kk)` of the block of `x` that point `t` reads. -/
theorem xblk_apply (c : Dev nD) (t : Fin cfg0.N) (p : Fin 2048) (kk : Fin 256) :
    iblk m c 0 t (ix2 p kk)
      = at2 (m ((c : Thread nD τ).loc main_arg0)) (t.val / 64 * 2048 + p.val) (t.val % 16 * 256 + kk.val) := by
  obtain ⟨e0, e1, -⟩ := in_idx t
  have ht : t.val < 256 := lt_of_lt_of_eq t.isLt (show cfg0.N = 256 from N_0)
  have hp := p.isLt
  have hk := kk.isLt
  show V m c main_arg0 (((cfg0.win 0).blk t).view.emb (ix2 p kk)) = _
  rw [V_main_arg0]
  unfold at2
  rw [dif_pos ⟨by omega, by omega⟩]
  refine congrArg _ (funext fun a => Fin.ext ?_)
  match a with
  | ⟨0, _⟩ => show win0_0.index t (0 : Fin 2) * 2048 + 1 * p.val = t.val / 64 * 2048 + p.val; rw [e0]; omega
  | ⟨1, _⟩ => show win0_0.index t (1 : Fin 2) * 256 + 1 * kk.val = t.val % 16 * 256 + kk.val; rw [e1]; omega

/-- Entry `(kk, q)` of the block of `W` that point `t` reads. -/
theorem wblk_apply (c : Dev nD) (t : Fin cfg0.N) (kk : Fin 256) (q : Fin 1024) :
    iblk m c 1 t (ix2 kk q)
      = at2 (m ((c : Thread nD τ).loc main_arg1)) (t.val % 16 * 256 + kk.val) (t.val / 16 % 4 * 1024 + q.val) := by
  obtain ⟨-, -, e0, e1, -⟩ := in_idx t
  have ht : t.val < 256 := lt_of_lt_of_eq t.isLt (show cfg0.N = 256 from N_0)
  have hq := q.isLt
  have hk := kk.isLt
  show V m c main_arg1 (((cfg0.win 1).blk t).view.emb (ix2 kk q)) = _
  rw [V_main_arg1]
  unfold at2
  rw [dif_pos ⟨by omega, by omega⟩]
  refine congrArg _ (funext fun a => Fin.ext ?_)
  match a with
  | ⟨0, _⟩ => show win0_1.index t (0 : Fin 2) * 256 + 1 * kk.val = t.val % 16 * 256 + kk.val; rw [e0]; omega
  | ⟨1, _⟩ => show win0_1.index t (1 : Fin 2) * 1024 + 1 * q.val = t.val / 16 % 4 * 1024 + q.val; rw [e1]; omega

/-- The bias as the kernel finds it: the host has laid the 4096 values out as one row. -/
theorem V_bias (c : Dev nD) :
    (V m c main_v0 : S1x4096.Idx → EReal)
      = shapeCast S1x4096 (m ((c : Thread nD τ).loc main_arg2)) shapeCasts_S4096_S1x4096 := by
  dsimp only [Gen.V, Gen.hostOps0]
  after_results
  rfl

/-- Entry `(0, q)` of the block of the bias row that point `t` reads. -/
theorem bblk_apply (c : Dev nD) (t : Fin cfg0.N) (q : Fin 1024) :
    iblk m c 2 t (ix2 (0 : Fin 1) q)
      = at1 (m ((c : Thread nD τ).loc main_arg2)) (t.val / 16 % 4 * 1024 + q.val) := by
  obtain ⟨-, -, -, -, e0, e1⟩ := in_idx t
  have ht : t.val < 256 := lt_of_lt_of_eq t.isLt (show cfg0.N = 256 from N_0)
  have hq := q.isLt
  show V m c main_v0 (((cfg0.win 2).blk t).view.emb (ix2 (0 : Fin 1) q)) = _
  rw [V_bias]
  have hi : ((cfg0.win 2).blk t).view.emb (ix2 (0 : Fin 1) q)
      = ix2 (0 : Fin 1) (⟨t.val / 16 % 4 * 1024 + q.val, by omega⟩ : Fin 4096) :=
    funext fun a => Fin.ext (by
      match a with
      | ⟨0, _⟩ => show win0_2.index t (0 : Fin 2) * 1 + 1 * 0 = 0; rw [e0]
      | ⟨1, _⟩ => show win0_2.index t (1 : Fin 2) * 1024 + 1 * q.val = t.val / 16 % 4 * 1024 + q.val; rw [e1]; omega)
  rw [hi, shapeCast_a_1a_apply]
  unfold at1
  rw [dif_pos (by omega)]

/-- What point `n` adds to entry `j` of its output block: the partial sum over its 256 values of the summation index,
    read off the whole arrays at the rows and columns the point's blocks cover. -/
def addend (x : (⟨2, ![8192, 4096]⟩ : Shape).Idx → EReal) (W : (⟨2, ![4096, 4096]⟩ : Shape).Idx → EReal)
    (n : ℕ) (j : S2048x1024.Idx) : EReal :=
  blockTerm x W (n / 64 * 2048 + (j 0).val) (n / 16 % 4 * 1024 + (j 1).val) (n % 16)

/-- The accumulation step at point `n`, over whatever the block held: that plus the point's addend. -/
theorem pay2_blocks (c : Dev nD) (n : ℕ) (h : n < cfg0.N) (acc : Vec Ideal S2048x1024 .f32) (p : Fin 2048) (q : Fin 1024) :
    k0_pay2 (F := Ideal) (iblk m c 0 ⟨n, h⟩) (iblk m c 1 ⟨n, h⟩) acc (ix2 p q)
      = acc (ix2 p q)
        + addend (m ((c : Thread nD τ).loc main_arg0)) (m ((c : Thread nD τ).loc main_arg1)) n (ix2 p q) := by
  refine (pay2_apply _ _ acc p q).trans (congrArg (acc (ix2 p q) + ·) ?_)
  show _ = blockTerm _ _ (n / 64 * 2048 + p.val) (n / 16 % 4 * 1024 + q.val) (n % 16)
  unfold blockTerm
  exact Finset.sum_congr rfl fun kk _ =>
    congrArg₂ (fun a b => a * bin b) (xblk_apply m c ⟨n, h⟩ p kk) (wblk_apply m c ⟨n, h⟩ kk q)

/-- The output block after the first fifteen points of run `R`: zero plus their fifteen addends. -/
theorem fold14 (c : Dev nD) (R : ℕ) (h : 16 * R + 14 < cfg0.N) (j : S2048x1024.Idx) :
    Pipeline.accAt (reset3 (F := Ideal) m c) (step3 (F := Ideal) m c) (16 * R) 14 h j
      = 0 + ∑ s ∈ Finset.range 15,
          addend (m ((c : Thread nD τ).loc main_arg0)) (m ((c : Thread nD τ).loc main_arg1)) (16 * R + s) j :=
  Pipeline.accAt_add_apply (ι := S2048x1024.Idx) (β := EReal) (reset3 (F := Ideal) m c) (step3 (F := Ideal) m c)
    (fun _ => 0) (addend (m ((c : Thread nD τ).loc main_arg0)) (m ((c : Thread nD τ).loc main_arg1))) (16 * R) 14
    (fun h i => by
      obtain ⟨p, q, rfl⟩ : ∃ (p : Fin 2048) (q : Fin 1024), i = ix2 p q := ⟨i 0, i 1, eq_ix2 i⟩
      unfold reset3
      refine (pay2_blocks m c _ h _ p q).trans ?_
      exact congrArg (· + _) (pay1_apply _))
    (fun n h acc i hb he => by
      obtain ⟨p, q, rfl⟩ : ∃ (p : Fin 2048) (q : Fin 1024), i = ix2 p q := ⟨i 0, i 1, eq_ix2 i⟩
      unfold step3
      rw [if_pos ⟨by omega, by omega⟩]
      exact pay2_blocks m c n h acc p q)
    14 le_rfl h j

/-- At the last point of a run the step accumulates, then adds the bias row and takes the maximum with zero. -/
theorem step3_last (c : Dev nD) (n : ℕ) (h : n < cfg0.N) (hn : n % 16 = 15) (acc : Vec Ideal S2048x1024 .f32) :
    step3 (F := Ideal) m c n h acc
      = k0_pay3 (k0_pay2 (iblk m c 0 ⟨n, h⟩) (iblk m c 1 ⟨n, h⟩) acc) (iblk m c 2 ⟨n, h⟩) := by
  unfold step3
  rw [if_neg (by omega), if_pos ⟨by omega, hn⟩]

/-- The output block of run `R` when it is written back, at the place of array entry `(r, c)` in it: the sixteen
    addends, the bias and the maximum with zero — the specification's entry. -/
theorem run_entry (c : Dev nD) (R : ℕ) (hlt : 16 * R + 15 < cfg0.N) (r : Fin 8192) (cc : Fin 4096)
    (hR : R = 4 * (r.val / 2048) + cc.val / 1024) :
    Pipeline.accAt (reset3 (F := Ideal) m c) (step3 (F := Ideal) m c) (16 * R) 15 hlt
        (ix2 (⟨r.val % 2048, Nat.mod_lt _ (by decide)⟩ : Fin 2048) (⟨cc.val % 1024, Nat.mod_lt _ (by decide)⟩ : Fin 1024))
      = dense (m ((c : Thread nD τ).loc main_arg0)) (m ((c : Thread nD τ).loc main_arg1))
          (m ((c : Thread nD τ).loc main_arg2)) r cc := by
  have hr := r.isLt
  have hc := cc.isLt
  rw [dense_eq_blocks]
  refine (congrFun (Pipeline.accAt_succ (reset3 (F := Ideal) m c) (step3 (F := Ideal) m c) (16 * R) 14 hlt) _).trans ?_
  rw [step3_last m c _ hlt (by omega)]
  refine (pay3_apply _ _ _ _).trans ?_
  rw [pay2_blocks, fold14, bblk_apply, zero_add,
    ← Finset.sum_range_succ (fun s => addend (m ((c : Thread nD τ).loc main_arg0)) (m ((c : Thread nD τ).loc main_arg1)) (16 * R + s) _) 15]
  refine congrArg₂ (fun a b => max (a + b) 0) (Finset.sum_congr rfl fun s hs => ?_) ?_
  · have hs' : s < 16 := Finset.mem_range.mp hs
    show blockTerm _ _ ((16 * R + s) / 64 * 2048 + r.val % 2048) ((16 * R + s) / 16 % 4 * 1024 + cc.val % 1024)
      ((16 * R + s) % 16) = _
    rw [show (16 * R + s) / 64 * 2048 + r.val % 2048 = r.val by omega,
      show (16 * R + s) / 16 % 4 * 1024 + cc.val % 1024 = cc.val by omega, show (16 * R + s) % 16 = s by omega]
  · show at1 _ ((16 * R + (14 + 1)) / 16 % 4 * 1024 + cc.val % 1024) = _
    rw [show (16 * R + (14 + 1)) / 16 % 4 * 1024 + cc.val % 1024 = cc.val by omega, at1_eq]

/-- The kernel's result array at `(r, c)` is the specification's entry. -/
theorem G3_apply (c : Dev nD) (r : Fin 8192) (cc : Fin 4096) :
    G3 (F := Ideal) m c (ix2 r cc)
      = dense (m ((c : Thread nD τ).loc main_arg0)) (m ((c : Thread nD τ).loc main_arg1))
          (m ((c : Thread nD τ).loc main_arg2)) r cc := by
  have hr := r.isLt
  have hc := cc.isLt
  have hR : run3Of (ix2 r cc) = 4 * (r.val / 2048) + cc.val / 1024 := by
    show 4 * (r.val / 2048 - 0) + 1 * (cc.val / 1024 - 0) = _
    omega
  have hlt : 16 * run3Of (ix2 r cc) + 15 < cfg0.N := by
    rw [hR, show cfg0.N = 256 from N_0]
    omega
  have hloc : loc3Of (ix2 r cc)
      = ix2 (⟨r.val % 2048, Nat.mod_lt _ (by decide)⟩ : Fin 2048) (⟨cc.val % 1024, Nat.mod_lt _ (by decide)⟩ : Fin 1024) :=
    funext fun a => by match a with | ⟨0, _⟩ => rfl | ⟨1, _⟩ => rfl
  unfold G3
  rw [dif_pos hlt, hloc]
  exact run_entry m c _ hlt r cc hR

end Cert.BinaryDense.Kernel

end
-- ==== Proof.RefRead.lean ====
/-
  The reference program read at an index: entry `(r, c)` of its result is
  `max (∑ k, x[r, k] · bin (W[k, c]) + b[c], 0)` — the matrix product as one sum over all 4096 values of `k`, the bias
  row broadcast down the rows, and the maximum with zero.
-/
import proofs.«108069_j91070486544907_2_alg».proof.Proof.Gen.ReferenceIdeal.Read
import proofs.«108069_j91070486544907_2_alg».proof.Proof.Spec

noncomputable section

namespace Cert.BinaryDense.Reference

open Cert.ReferenceIdeal Cert.ReferenceIdeal.Gen Cert.ReferenceIdeal.Read Idealize.ShloMosaic Idealize.ShloMosaic.ValueIdx
open scoped BigOperators

/-- The left operand of the product at output `(r, c)` and summation index `k` is read at `(r, k)`. -/
theorem lidx_eq (r : Fin 8192) (c : Fin 4096) (k : Fin 4096) : lidx_main_v3 (ix2 r c) k = ix2 r k :=
  funext fun a => by match a with | ⟨0, _⟩ => rfl | ⟨1, _⟩ => rfl

/-- … and the right operand at `(k, c)`. -/
theorem ridx_eq (r : Fin 8192) (c : Fin 4096) (k : Fin 4096) : ridx_main_v3 (ix2 r c) k = ix2 k c :=
  funext fun a => by match a with | ⟨0, _⟩ => rfl | ⟨1, _⟩ => rfl

/-- The bias, made a row and broadcast down the rows, is read at `c`. -/
theorem bidx_eq (r : Fin 8192) (c : Fin 4096) : idx_main_v4 (idx_main_v5 (ix2 r c)) = ix1 c :=
  funext fun a => by match a with | ⟨0, _⟩ => rfl

/-- The selected weight at an index is the binarised weight there. -/
theorem bin_eq (W : (⟨S4096x4096, .f32⟩ : BufTy).Contents (Elt Ideal)) (j : S4096x4096.Idx) :
    val_main_v2 (F := Ideal) W j = bin (W j) := by
  rw [val_main_v2_apply, val_main_v1_apply, val_main_v0_apply, val_main_cst_apply, val_main_call0_v0_apply,
    val_main_cst_0_apply, val_main_call0_v1_apply, val_main_cst_1_apply]
  rfl

/-- The reference's result at `(r, c)`. -/
theorem result_apply (x : (⟨S8192x4096, .f32⟩ : BufTy).Contents (Elt Ideal)) (W : (⟨S4096x4096, .f32⟩ : BufTy).Contents (Elt Ideal))
    (b : (⟨S4096, .f32⟩ : BufTy).Contents (Elt Ideal)) (r : Fin 8192) (c : Fin 4096) :
    val_main_v7 (F := Ideal) x W b (ix2 r c) = dense x W b r c := by
  rw [val_main_v7_apply, val_main_v6_apply, val_main_v3_apply, val_main_v5_apply, val_main_v4_apply,
    val_main_call1_v0_apply, val_main_call1_cst_apply, bidx_eq]
  unfold dense
  simp only [lidx_eq, ridx_eq, bin_eq]
  rw [Ideal.maximumf_def, Ideal.addf_def, Ideal.ofBits_def, Ideal.ofBits_zero_f32]

end Cert.BinaryDense.Reference

end
-- ==== Proof.lean ====
/-
  A dense layer with sign-binarised weights: `out = relu (x · bin W + b)` with `bin w = 1` where `w ≥ 0` and `-1`
  elsewhere, for `x` of 8192 × 4096, `W` of 4096 × 4096 and `b` of 4096 entries.

  The kernel tiles the output into 2048 × 1024 blocks and the summation index into sixteen blocks of 256; the sixteen
  grid points of an output block accumulate their partial products into it, the first from zero, and the last adds the
  bias and takes the maximum with zero.  The reference forms the whole product as one sum over the 4096 values of the
  summation index, adds the bias row and takes the maximum with zero.  On the extended reals the two agree entry by
  entry, because a sum over 4096 indices is the sum of its sixteen consecutive blocks of 256 and `0 + a = a`; only
  associativity and commutativity of addition are used, so the finiteness of the inputs plays no part in the values.
  Both programs use the same three float words (zero, one, minus one), which are never evaluated except that the zero
  word is the number zero.

  The idealised kernel differs from the kernel in no rewrite, so that conjunct is trivial.  The three frame claims are
  the programs' runs with the results dropped.
-/
import proofs.«108069_j91070486544907_2_alg».proof.Defs
import proofs.«108069_j91070486544907_2_alg».proof.Proof.Gen.Kernel.Frame
import proofs.«108069_j91070486544907_2_alg».proof.Proof.Gen.KernelIdeal.Value
import proofs.«108069_j91070486544907_2_alg».proof.Proof.Gen.Pre_finite_inputs
import proofs.«108069_j91070486544907_2_alg».proof.Proof.Gen.ReferenceIdeal.Run
import proofs.«108069_j91070486544907_2_alg».proof.Proof.Blocks
import proofs.«108069_j91070486544907_2_alg».proof.Proof.RefRead
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both runs end; the kernel's result array and the reference's hold, at every entry `(r, c)`, the number
    `max (∑ k, x[r, k] · bin (W[k, c]) + b[c], 0)` of the arguments the two memories agree on. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine (Cert.ReferenceIdeal.Read.val_main_v7_eq (F := Ideal) _ _ _).trans ?_
  refine funext fun (i : (⟨2, ![8192, 4096]⟩ : Shape).Idx) => ?_
  obtain ⟨r, cc, rfl⟩ : ∃ (r : Fin 8192) (cc : Fin 4096), i = ValueIdx.ix2 r cc := ⟨i 0, i 1, ValueIdx.eq_ix2 i⟩
  exact (Cert.BinaryDense.Reference.result_apply _ _ _ r cc).trans (Cert.BinaryDense.Kernel.G3_apply m c r cc).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
